-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x1600000 : Shape := ⟨2, ![3, 1600000]⟩
abbrev S3x128x128 : Shape := ⟨3, ![3, 128, 128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x1600000 : S_.BroadcastsInDim S3x1600000 (![] : Fin 0 → Fin S3x1600000.rank)
  reducesTo_S3x1600000_S_d0_1 : S3x1600000.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : IVec S3x1600000 32) (main_arg2 : IVec S3x1600000 32) (main_arg3 : FVec F S3x1600000 .f32) (main_arg4 : FVec F S3x128x128 .f32) (main_arg5 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x1600000 .f32 := Host.absf main_arg3
  let main_cst_0 : FVec F S_ .f32 := constant S_ .f32 0x7F800000#32
  let main_v5 : FVec F S3x1600000 .f32 := broadcastInDim S3x1600000 ![] bcast_S_S3x1600000 main_cst_0
  let main_v6 : IVec S3x1600000 1 := cmpf .olt main_v4 main_v5
  let main_c_1 : IVec S_ 1 := constantI S_ 1 1#1
  let main_v7 : IVec S_ 1 := (fun x v => Host.reduce IntOp.andi x v reducesTo_S3x1600000_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S3x1600000 : Shape := ⟨2, ![3, 1600000]⟩
abbrev S3x128x128 : Shape := ⟨3, ![3, 128, 128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S4000x128 : Shape := ⟨2, ![4000, 128]⟩
abbrev S1x128x128 : Shape := ⟨3, ![1, 128, 128]⟩

abbrev nBuf : Space → Nat
  | .hbm => 73
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S3x1600000, .i32⟩
  | .hbm, ⟨2, _⟩ => ⟨S3x1600000, .i32⟩
  | .hbm, ⟨3, _⟩ => ⟨S3x1600000, .f32⟩
  | .hbm, ⟨4, _⟩ => ⟨S3x128x128, .f32⟩
  | .hbm, ⟨5, _⟩ => ⟨S128x128, .f32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1x1600000, .f32⟩
  | .hbm, ⟨18, _⟩ => ⟨S1600000, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S1x1600000, .i32⟩
  | .hbm, ⟨23, _⟩ => ⟨S1600000, .i32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x1600000, .i32⟩
  | .hbm, ⟨29, _⟩ => ⟨S1600000, .i32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S1x1600000, .f32⟩
  | .hbm, ⟨40, _⟩ => ⟨S1600000, .f32⟩
  | .hbm, ⟨41, _⟩ => ⟨S1600000x1, .f32⟩
  | .hbm, ⟨42, _⟩ => ⟨S1600000x128, .f32⟩
  | .hbm, ⟨43, _⟩ => ⟨S1600000x128, .f32⟩
  | .hbm, ⟨44, _⟩ => ⟨S1x1600000, .i32⟩
  | .hbm, ⟨45, _⟩ => ⟨S1600000, .i32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S1x1600000, .f32⟩
  | .hbm, ⟨62, _⟩ => ⟨S1600000, .f32⟩
  | .hbm, ⟨63, _⟩ => ⟨S1600000x1, .f32⟩
  | .hbm, ⟨64, _⟩ => ⟨S1600000x128, .f32⟩
  | .hbm, ⟨65, _⟩ => ⟨S1600000x128, .f32⟩
  | .hbm, ⟨66, _⟩ => ⟨S1x1600000, .i32⟩
  | .hbm, ⟨67, _⟩ => ⟨S1600000, .i32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S3x128x128, .f32⟩
  | .local _ .vmem, ⟨10, _⟩ => ⟨S4000x128, .f32⟩
  | .local _ .vmem, ⟨11, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_4 : Ref sig .tc := ⟨.hbm, 52, rfl⟩
abbrev main_v40 : Ref sig .tc := ⟨.hbm, 53, rfl⟩
abbrev main_v41 : Ref sig .tc := ⟨.hbm, 54, rfl⟩
abbrev main_c_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S3x1600000_S1x1600000_0_0 : S3x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x1600000_S1x1600000_1_0 : S3x1600000.Slices ![1, 0] S1x1600000
  slices_S3x1600000_S1x1600000_2_0 : S3x1600000.Slices ![2, 0] S1x1600000
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S4000x128_S4000x128 : S4000x128.ShapeCasts S4000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128x128.size a ≤ S3x128x128.size a
  hwx0_5 : ∀ i : grid0.Coords, EltTy.bits .f32 = 32 ∨ (Rect.block (s := S3x128x128) S3x128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v56) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S3x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v57) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S3x1600000 : Shape := ⟨2, ![3, 1600000]⟩
abbrev S3x128x128 : Shape := ⟨3, ![3, 128, 128]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3x1600000, .i32⟩
  | .hbm, ⟨2, _⟩ => ⟨S3x1600000, .i32⟩
  | .hbm, ⟨3, _⟩ => ⟨S3x1600000, .f32⟩
  | .hbm, ⟨4, _⟩ => ⟨S3x128x128, .f32⟩
  | .hbm, ⟨5, _⟩ => ⟨S128x128, .f32⟩
  | .hbm, ⟨6, _⟩ => ⟨S100000x128, .f32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1x1600000, .f32⟩
  | .hbm, ⟨19, _⟩ => ⟨S1600000, .f32⟩
  | .hbm, ⟨20, _⟩ => ⟨S1600000x1, .f32⟩
  | .hbm, ⟨21, _⟩ => ⟨S1600000x128, .f32⟩
  | .hbm, ⟨22, _⟩ => ⟨S1600000x128, .f32⟩
  | .hbm, ⟨23, _⟩ => ⟨S1x1600000, .i32⟩
  | .hbm, ⟨24, _⟩ => ⟨S1600000, .i32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S1x128x128, .f32⟩
  | .hbm, ⟨30, _⟩ => ⟨S128x128, .f32⟩
  | .hbm, ⟨31, _⟩ => ⟨S100000x128, .f32⟩
  | .hbm, ⟨32, _⟩ => ⟨S100000x128, .f32⟩
  | .hbm, ⟨33, _⟩ => ⟨S1x1600000, .i32⟩
  | .hbm, ⟨34, _⟩ => ⟨S1600000, .i32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S1x1600000, .f32⟩
  | .hbm, ⟨45, _⟩ => ⟨S1600000, .f32⟩
  | .hbm, ⟨46, _⟩ => ⟨S1600000x1, .f32⟩
  | .hbm, ⟨47, _⟩ => ⟨S1600000x128, .f32⟩
  | .hbm, ⟨48, _⟩ => ⟨S1600000x128, .f32⟩
  | .hbm, ⟨49, _⟩ => ⟨S1x1600000, .i32⟩
  | .hbm, ⟨50, _⟩ => ⟨S1600000, .i32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S1x128x128, .f32⟩
  | .hbm, ⟨56, _⟩ => ⟨S128x128, .f32⟩
  | .hbm, ⟨57, _⟩ => ⟨S100000x128, .f32⟩
  | .hbm, ⟨58, _⟩ => ⟨S100000x128, .f32⟩
  | .hbm, ⟨59, _⟩ => ⟨S1x1600000, .i32⟩
  | .hbm, ⟨60, _⟩ => ⟨S1600000, .i32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S1x1600000, .f32⟩
  | .hbm, ⟨71, _⟩ => ⟨S1600000, .f32⟩
  | .hbm, ⟨72, _⟩ => ⟨S1600000x1, .f32⟩
  | .hbm, ⟨73, _⟩ => ⟨S1600000x128, .f32⟩
  | .hbm, ⟨74, _⟩ => ⟨S1600000x128, .f32⟩
  | .hbm, ⟨75, _⟩ => ⟨S1x1600000, .i32⟩
  | .hbm, ⟨76, _⟩ => ⟨S1600000, .i32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S1x128x128, .f32⟩
  | .hbm, ⟨82, _⟩ => ⟨S128x128, .f32⟩
  | .hbm, ⟨83, _⟩ => ⟨S100000x128, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_1 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_4 : Ref sig .tc := ⟨.hbm, 61, rfl⟩
abbrev main_v49 : Ref sig .tc := ⟨.hbm, 62, rfl⟩
abbrev main_v50 : Ref sig .tc := ⟨.hbm, 63, rfl⟩
abbrev main_c_5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_6 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩

abbrev nD : Nat := 1
abbrev τ : Topo := Topo.v7x

variable {F : FTy → Type} [FloatOps F]

class Facts₀ : Prop where
  slices_S3x1600000_S1x1600000_0_0 : S3x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x1600000_S1x1600000_1_0 : S3x1600000.Slices ![1, 0] S1x1600000
  slices_S3x128x128_S1x128x128_1_0_0 : S3x128x128.Slices ![1, 0, 0] S1x128x128
  slices_S3x1600000_S1x1600000_2_0 : S3x1600000.Slices ![2, 0] S1x1600000
  slices_S3x128x128_S1x128x128_2_0_0 : S3x128x128.Slices ![2, 0, 0] S1x128x128
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The value both programs compute, as one function of six arrays, entry by entry, over the extended reals.

  For a node-feature matrix `x` (M rows, 128 columns), three message matrices `m0 m1 m2` of the same shape, a
  128 × 128 self-loop weight `l` and three 128 × 128 relation weights `w0 w1 w2`, the entry (a, b) of the result is

      ((∑ k, x (a,k) · l (k,b)  +  ∑ k, m0 (a,k) · w0 (k,b))  +  ∑ k, m1 (a,k) · w1 (k,b))  +  ∑ k, m2 (a,k) · w2 (k,b),

  the four matrix products added from the left. Row a of the result depends on row a of `x`, `m0`, `m1`, `m2` only,
  which is why a band of rows of the result is the same function of the matching bands of the four matrices.
  No law of the extended reals beyond reading a matrix product as a sum is used: both programs add the four
  products in this one order.
-/
import Idealize.ShloMosaic.Lib.ValueIdx
import Idealize.ShloMosaic.PureOps.Ideal

noncomputable section

open scoped BigOperators

namespace Cert.Combine

open Idealize.ShloMosaic Idealize.ShloMosaic.ValueIdx

/-- Entry (a, b) of the product of an M × 128 matrix by a 128 × 128 matrix. -/
def rowDot {M : Nat} (A : FVec Ideal ⟨2, ![M, 128]⟩ .f32) (B : FVec Ideal ⟨2, ![128, 128]⟩ .f32) (a : Fin M) (b : Fin 128) : Ideal .f32 :=
  ∑ k : Fin 128, A (ix2 a k) * B (ix2 k b)

/-- The four products added from the left, at row `a` and column `b`. -/
def entry {M : Nat} (x m0 m1 m2 : FVec Ideal ⟨2, ![M, 128]⟩ .f32) (l w0 w1 w2 : FVec Ideal ⟨2, ![128, 128]⟩ .f32)
    (a : Fin M) (b : Fin 128) : Ideal .f32 :=
  ((rowDot x l a b + rowDot m0 w0 a b) + rowDot m1 w1 a b) + rowDot m2 w2 a b

/-- The four products added from the left, entry by entry. -/
def sumOfProducts {M : Nat} (x m0 m1 m2 : FVec Ideal ⟨2, ![M, 128]⟩ .f32) (l w0 w1 w2 : FVec Ideal ⟨2, ![128, 128]⟩ .f32) :
    FVec Ideal ⟨2, ![M, 128]⟩ .f32 :=
  fun i => entry x m0 m1 m2 l w0 w1 w2 (i 0) (i 1)

theorem sumOfProducts_ix2 {M : Nat} (x m0 m1 m2 : FVec Ideal ⟨2, ![M, 128]⟩ .f32) (l w0 w1 w2 : FVec Ideal ⟨2, ![128, 128]⟩ .f32)
    (a : Fin M) (b : Fin 128) : sumOfProducts x m0 m1 m2 l w0 w1 w2 (ix2 a b) = entry x m0 m1 m2 l w0 w1 w2 a b := rfl

/-- Plane `r` of a stack of three 128 × 128 matrices. -/
def plane (w : FVec Ideal ⟨3, ![3, 128, 128]⟩ .f32) (r : Fin 3) : FVec Ideal ⟨2, ![128, 128]⟩ .f32 :=
  fun j => w (ix3 r (j 0) (j 1))

/-- The one plane of a stack of one 128 × 128 matrix. -/
def onlyPlane (v : FVec Ideal ⟨3, ![1, 128, 128]⟩ .f32) : FVec Ideal ⟨2, ![128, 128]⟩ .f32 :=
  fun j => v (ix3 (0 : Fin 1) (j 0) (j 1))

/-- The whole result: the self-loop product and the three relation products, the relation weights the planes of `w`. -/
def combined {M : Nat} (x m0 m1 m2 : FVec Ideal ⟨2, ![M, 128]⟩ .f32) (l : FVec Ideal ⟨2, ![128, 128]⟩ .f32)
    (w : FVec Ideal ⟨3, ![3, 128, 128]⟩ .f32) : FVec Ideal ⟨2, ![M, 128]⟩ .f32 :=
  sumOfProducts x m0 m1 m2 l (plane w 0) (plane w 1) (plane w 2)

/-- Two sums of products whose rows agree (row `a` of the first is row `a'` of the second, matrix by matrix, the weights
    equal) agree at those rows, in every column. -/
theorem entry_congr {M M' : Nat} (x m0 m1 m2 : FVec Ideal ⟨2, ![M, 128]⟩ .f32) (x' m0' m1' m2' : FVec Ideal ⟨2, ![M', 128]⟩ .f32)
    (l w0 w1 w2 : FVec Ideal ⟨2, ![128, 128]⟩ .f32) (a : Fin M) (a' : Fin M') (b : Fin 128)
    (hx : ∀ k, x (ix2 a k) = x' (ix2 a' k)) (h0 : ∀ k, m0 (ix2 a k) = m0' (ix2 a' k))
    (h1 : ∀ k, m1 (ix2 a k) = m1' (ix2 a' k)) (h2 : ∀ k, m2 (ix2 a k) = m2' (ix2 a' k)) :
    entry x m0 m1 m2 l w0 w1 w2 a b = entry x' m0' m1' m2' l w0 w1 w2 a' b := by
  unfold entry rowDot
  simp only [hx, h0, h1, h2]

end Cert.Combine

end
-- ==== Proof.LibMatmul.lean ====
/-
  A plain M × K by K × N matrix product into a zero accumulator, read at one entry: at the exact (extended real) values the
  entry (a, b) is the sum over the contracted coordinate c of A (a, c) · B (c, b) — no rounding and no chunk order left in it.
-/
import Idealize.ShloMosaic.Lib.ValueIdx
import Idealize.ShloMosaic.PureOps.Ideal.Laws

noncomputable section

open scoped BigOperators

namespace Cert.LibMatmul

open Idealize.ShloMosaic Idealize.ShloMosaic.ValueIdx

/-- The product of an `M × K` by a `K × N` matrix accumulated into the zero splat, at entry `(a, b)`, is
    `∑ c, A (a, c) · B (c, b)` over the extended reals. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibMatmul

end
-- ==== Proof.Payload.lean ====
/-
  The kernel body's arithmetic at one entry. The body loads a band of 4000 rows of the node features and of each of the
  three message matrices, the self-loop weight and the three planes of the relation weights, narrows each to a
  shorter float format (no change of value over the extended reals), multiplies each band by its weight into a zero
  accumulator, and adds the four products from the left. So the stored block, at row p and column q, is
  ((∑ k, x (p,k) · l (k,q) + ∑ k, m0 (p,k) · w0 (k,q)) + ∑ k, m1 (p,k) · w1 (k,q)) + ∑ k, m2 (p,k) · w2 (k,q):
  the specification's sum of products, at band height 4000.
-/
import proofs.«124819_j56684978372939_1_alg».proof.Proof.Gen.KernelIdeal.Skeleton
import proofs.«124819_j56684978372939_1_alg».proof.Proof.Spec
import proofs.«124819_j56684978372939_1_alg».proof.Proof.LibMatmul
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.Combine

/-- A 4000 × 128 band times a 128 × 128 weight, both narrowed first, accumulated from zero: at (p, q) the sum over k of
    band (p, k) · weight (k, q). -/
theorem product_at (A : FVec Ideal S4000x128 .f32) (B : FVec Ideal S128x128 .f32) (p : Fin 4000) (q : Fin 128) :
    matmul dot_S4000x128_S128x128_S4000x128_1_0_0_1_n_n none (truncf .bf16 A bitsLt_bf16_f32) (truncf .bf16 B bitsLt_bf16_f32)
      (constant (F := Ideal) S4000x128 .f32 0x00000000#32) (ix2 p q) = rowDot A B p q := by
  have e : dot_S4000x128_S128x128_S4000x128_1_0_0_1_n_n = DotDims.plain 4000 128 128 := rfl
  rw [e]
  exact Cert.LibMatmul.matmul_plain_zero_apply none _ _ p q

/-- A stack of one 128 × 128 matrix recast as that matrix: entry (k, q) is entry (0, k, q) of the stack. -/
theorem recast_plane (v : FVec Ideal S1x128x128 .f32) :
    shapeCast S128x128 v shapeCasts_S1x128x128_S128x128 = onlyPlane v := by
  funext j
  obtain ⟨k, q, rfl⟩ : ∃ (k q : Fin 128), j = ix2 k q := ⟨j 0, j 1, eq_ix2 j⟩
  refine shapeCast_apply v shapeCasts_S1x128x128_S128x128 (ix2 k q) (ix3 (0 : Fin 1) k q) ?_
  rw [Shape.rowMajor_val_three, Shape.rowMajor_val_two]
  show (0 * 128 + k.val) * 128 + q.val = k.val * 128 + q.val
  omega

/-- The stored block is the sum of the four products of the loaded bands by the loaded weights. -/
theorem stored_eq (v0 v5 v13 v21 : Vec Ideal S4000x128 .f32) (v2 : Vec Ideal S128x128 .f32) (v8 v16 v24 : Vec Ideal S1x128x128 .f32) :
    k0_pay1 (F := Ideal) v0 v2 v5 v8 v13 v16 v21 v24
      = sumOfProducts v0 v5 v13 v21 v2 (onlyPlane v8) (onlyPlane v16) (onlyPlane v24) := by
  funext j
  obtain ⟨p, q, rfl⟩ : ∃ (p : Fin 4000) (q : Fin 128), j = ix2 p q := ⟨j 0, j 1, eq_ix2 j⟩
  rw [sumOfProducts_ix2]
  unfold k0_pay1 entry
  simp only [shapeCast_self, recast_plane, addf, Ideal.addf_def]
  rw [product_at, product_at, product_at, product_at]

end Cert.KernelIdeal.Payload

end
-- ==== Proof.Bands.lean ====
/-
  Bands of rows. The grid has 25 points; at point t every row-tiled window (the node features, the three message
  matrices, the result) holds rows 4000·t … 4000·t + 3999 of its array, all 128 columns, and the two weight windows
  hold their whole arrays. Row a of the sum of products reads row a of the four matrices only, so the band of the
  whole-array result at point t is the sum of products of the four bands at t by the same weights; the three weight
  planes the body loads (rows 0, 1, 2 of the stack, one plane each) are the planes the specification names.
-/
import proofs.«124819_j56684978372939_1_alg».proof.Proof.Gen.KernelIdeal.Frame
import proofs.«124819_j56684978372939_1_alg».proof.Proof.Spec
import Idealize.ShloMosaic.Lib.Pipeline.Value

noncomputable section

open scoped BigOperators

namespace Cert.KernelIdeal.Bands

open Cert.KernelIdeal Cert.KernelIdeal.Gen Idealize.ShloMosaic Idealize.ShloMosaic.TcCoe Idealize.ShloMosaic.ValueIdx Cert.Combine

variable (m : (ℓ : Loc nD τ sig) → Buf (Elt Ideal) ℓ)

/-- The block index of each window at each point, decided over the 25 points: the four row-tiled inputs sit on the
    result's row band, in column band 0; the weights' one block is block 0 on every axis. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = win0_6.index t (0 : Fin 2) ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) ≤ 24 ∧ win0_6.index t (1 : Fin 2) = 0 :=
  (by decide +kernel : ∀ t : Fin grid0.N, _)

/-- The node features' block at point t read off ANY array of the window's shape: entry y is the array at row 4000·(band of t) + y₀,
    column y₁. -/
theorem read0 (c : Dev nD) (t : Fin cfg0.N) (X : Buf (Elt Ideal) ((c : Thread nD τ).loc main_arg0)) (y : S4000x128.Idx) (i : S100000x128.Idx)
    (h0 : (i 0).val = win0_6.index t (0 : Fin 2) * 4000 + (y 0).val) (h1 : (i 1).val = (y 1).val) :
    (((cfg0.win 0).blk t).view.read (Elt Ideal) X : Vec Ideal S4000x128 .f32) y = (X : S100000x128.Idx → Elt Ideal .f32) i := by
  obtain ⟨e0, e1, -⟩ := idx_facts t
  rw [View.read_apply]
  refine congrArg (X : S100000x128.Idx → Elt Ideal .f32) (funext fun a => Fin.ext ?_)
  match a with
  | ⟨0, _⟩ => show win0_0.index t (0 : Fin 2) * 4000 + 1 * (y 0).val = (i 0).val; omega
  | ⟨1, _⟩ => show win0_0.index t (1 : Fin 2) * 128 + 1 * (y 1).val = (i 1).val; omega

/-- The first message matrix's block at point t read off ANY array of the window's shape: entry y is the array at row 4000·(band of t) + y₀,
    column y₁. -/
theorem read1 (c : Dev nD) (t : Fin cfg0.N) (X : Buf (Elt Ideal) ((c : Thread nD τ).loc main_v18)) (y : S4000x128.Idx) (i : S100000x128.Idx)
    (h0 : (i 0).val = win0_6.index t (0 : Fin 2) * 4000 + (y 0).val) (h1 : (i 1).val = (y 1).val) :
    (((cfg0.win 1).blk t).view.read (Elt Ideal) X : Vec Ideal S4000x128 .f32) y = (X : S100000x128.Idx → Elt Ideal .f32) i := by
  obtain ⟨-, -, e0, e1, -⟩ := idx_facts t
  rw [View.read_apply]
  refine congrArg (X : S100000x128.Idx → Elt Ideal .f32) (funext fun a => Fin.ext ?_)
  match a with
  | ⟨0, _⟩ => show win0_1.index t (0 : Fin 2) * 4000 + 1 * (y 0).val = (i 0).val; omega
  | ⟨1, _⟩ => show win0_1.index t (1 : Fin 2) * 128 + 1 * (y 1).val = (i 1).val; omega

/-- The second message matrix's block at point t read off ANY array of the window's shape: entry y is the array at row 4000·(band of t) + y₀,
    column y₁. -/
theorem read2 (c : Dev nD) (t : Fin cfg0.N) (X : Buf (Elt Ideal) ((c : Thread nD τ).loc main_v37)) (y : S4000x128.Idx) (i : S100000x128.Idx)
    (h0 : (i 0).val = win0_6.index t (0 : Fin 2) * 4000 + (y 0).val) (h1 : (i 1).val = (y 1).val) :
    (((cfg0.win 2).blk t).view.read (Elt Ideal) X : Vec Ideal S4000x128 .f32) y = (X : S100000x128.Idx → Elt Ideal .f32) i := by
  obtain ⟨-, -, -, -, e0, e1, -⟩ := idx_facts t
  rw [View.read_apply]
  refine congrArg (X : S100000x128.Idx → Elt Ideal .f32) (funext fun a => Fin.ext ?_)
  match a with
  | ⟨0, _⟩ => show win0_2.index t (0 : Fin 2) * 4000 + 1 * (y 0).val = (i 0).val; omega
  | ⟨1, _⟩ => show win0_2.index t (1 : Fin 2) * 128 + 1 * (y 1).val = (i 1).val; omega

/-- The third message matrix's block at point t read off ANY array of the window's shape: entry y is the array at row 4000·(band of t) + y₀,
    column y₁. -/
theorem read3 (c : Dev nD) (t : Fin cfg0.N) (X : Buf (Elt Ideal) ((c : Thread nD τ).loc main_v56)) (y : S4000x128.Idx) (i : S100000x128.Idx)
    (h0 : (i 0).val = win0_6.index t (0 : Fin 2) * 4000 + (y 0).val) (h1 : (i 1).val = (y 1).val) :
    (((cfg0.win 3).blk t).view.read (Elt Ideal) X : Vec Ideal S4000x128 .f32) y = (X : S100000x128.Idx → Elt Ideal .f32) i := by
  obtain ⟨-, -, -, -, -, -, e0, e1, -⟩ := idx_facts t
  rw [View.read_apply]
  refine congrArg (X : S100000x128.Idx → Elt Ideal .f32) (funext fun a => Fin.ext ?_)
  match a with
  | ⟨0, _⟩ => show win0_3.index t (0 : Fin 2) * 4000 + 1 * (y 0).val = (i 0).val; omega
  | ⟨1, _⟩ => show win0_3.index t (1 : Fin 2) * 128 + 1 * (y 1).val = (i 1).val; omega

/-- The result's block at point t read off ANY array of its shape, likewise (the result's own band is the band). -/
theorem read6 (c : Dev nD) (t : Fin cfg0.N) (X : Buf (Elt Ideal) ((c : Thread nD τ).loc main_v57)) (y : S4000x128.Idx) (i : S100000x128.Idx)
    (h0 : (i 0).val = win0_6.index t (0 : Fin 2) * 4000 + (y 0).val) (h1 : (i 1).val = (y 1).val) :
    (((cfg0.win 6).blk t).view.read (Elt Ideal) X : Vec Ideal S4000x128 .f32) y = (X : S100000x128.Idx → Elt Ideal .f32) i := by
  obtain ⟨-, -, -, -, -, -, -, -, -, -, -, -, -, -, e1⟩ := idx_facts t
  rw [View.read_apply]
  refine congrArg (X : S100000x128.Idx → Elt Ideal .f32) (funext fun a => Fin.ext ?_)
  match a with
  | ⟨0, _⟩ => show win0_6.index t (0 : Fin 2) * 4000 + 1 * (y 0).val = (i 0).val; omega
  | ⟨1, _⟩ => show win0_6.index t (1 : Fin 2) * 128 + 1 * (y 1).val = (i 1).val; omega

/-- The self-loop weight's one block, read off ANY array of its shape, is that array. -/
theorem read4 (c : Dev nD) (t : Fin cfg0.N) (X : Buf (Elt Ideal) ((c : Thread nD τ).loc main_arg5)) :
    (((cfg0.win 4).blk t).view.read (Elt Ideal) X : Vec Ideal S128x128 .f32) = (X : S128x128.Idx → Elt Ideal .f32) := by
  obtain ⟨-, -, -, -, -, -, -, -, e0, e1, -⟩ := idx_facts t
  funext y
  rw [View.read_apply]
  refine congrArg (X : S128x128.Idx → Elt Ideal .f32) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The relation weights' one block, read off ANY array of its shape, is that array. -/
theorem read5 (c : Dev nD) (t : Fin cfg0.N) (X : Buf (Elt Ideal) ((c : Thread nD τ).loc main_arg4)) :
    (((cfg0.win 5).blk t).view.read (Elt Ideal) X : Vec Ideal S3x128x128 .f32) = (X : S3x128x128.Idx → Elt Ideal .f32) := by
  obtain ⟨-, -, -, -, -, -, -, -, -, -, e0, e1, e2, -⟩ := idx_facts t
  funext y
  rw [View.read_apply]
  refine congrArg (X : S3x128x128.Idx → Elt Ideal .f32) (funext fun a => Fin.ext ?_)
  match a with
  | ⟨0, _⟩ => show win0_5.index t (0 : Fin 3) * 3 + 1 * (y 0).val = (y 0).val; omega
  | ⟨1, _⟩ => show win0_5.index t (1 : Fin 3) * 128 + 1 * (y 1).val = (y 1).val; omega
  | ⟨2, _⟩ => show win0_5.index t (2 : Fin 3) * 128 + 1 * (y 2).val = (y 2).val; omega

/-- The node features' block at point t, as the region finds its array. -/
theorem iblk0_apply (c : Dev nD) (t : Fin cfg0.N) (y : S4000x128.Idx) (i : S100000x128.Idx)
    (h0 : (i 0).val = win0_6.index t (0 : Fin 2) * 4000 + (y 0).val) (h1 : (i 1).val = (y 1).val) :
    (iblk m c 0 t : Vec Ideal S4000x128 .f32) y = (V m c main_arg0 : S100000x128.Idx → Elt Ideal .f32) i := by
  unfold iblk
  exact read0 c t _ y i h0 h1

/-- The first message matrix's block at point t, as the region finds its array. -/
theorem iblk1_apply (c : Dev nD) (t : Fin cfg0.N) (y : S4000x128.Idx) (i : S100000x128.Idx)
    (h0 : (i 0).val = win0_6.index t (0 : Fin 2) * 4000 + (y 0).val) (h1 : (i 1).val = (y 1).val) :
    (iblk m c 1 t : Vec Ideal S4000x128 .f32) y = (V m c main_v18 : S100000x128.Idx → Elt Ideal .f32) i := by
  unfold iblk
  exact read1 c t _ y i h0 h1

/-- The second message matrix's block at point t, as the region finds its array. -/
theorem iblk2_apply (c : Dev nD) (t : Fin cfg0.N) (y : S4000x128.Idx) (i : S100000x128.Idx)
    (h0 : (i 0).val = win0_6.index t (0 : Fin 2) * 4000 + (y 0).val) (h1 : (i 1).val = (y 1).val) :
    (iblk m c 2 t : Vec Ideal S4000x128 .f32) y = (V m c main_v37 : S100000x128.Idx → Elt Ideal .f32) i := by
  unfold iblk
  exact read2 c t _ y i h0 h1

/-- The third message matrix's block at point t, as the region finds its array. -/
theorem iblk3_apply (c : Dev nD) (t : Fin cfg0.N) (y : S4000x128.Idx) (i : S100000x128.Idx)
    (h0 : (i 0).val = win0_6.index t (0 : Fin 2) * 4000 + (y 0).val) (h1 : (i 1).val = (y 1).val) :
    (iblk m c 3 t : Vec Ideal S4000x128 .f32) y = (V m c main_v56 : S100000x128.Idx → Elt Ideal .f32) i := by
  unfold iblk
  exact read3 c t _ y i h0 h1

/-- The self-loop weight's one block is the whole weight, as the region finds it. -/
theorem iblk4_eq (c : Dev nD) (t : Fin cfg0.N) :
    (iblk m c 4 t : Vec Ideal S128x128 .f32) = (V m c main_arg5 : S128x128.Idx → Elt Ideal .f32) := by
  unfold iblk
  exact read4 c t _

/-- The relation weights' one block is the whole stack, as the region finds it. -/
theorem iblk5_eq (c : Dev nD) (t : Fin cfg0.N) :
    (iblk m c 5 t : Vec Ideal S3x128x128 .f32) = (V m c main_arg4 : S3x128x128.Idx → Elt Ideal .f32) := by
  unfold iblk
  exact read5 c t _

/-- The plane the body loads at row 0 of the stack is plane 0. -/
theorem loaded_plane0 (W : Vec Ideal S3x128x128 .f32) : onlyPlane (View.ld W r0_2) = plane W 0 := by
  funext j
  unfold onlyPlane plane
  refine congrArg W (funext fun a => Fin.ext ?_)
  match a with
  | ⟨0, _⟩ => rfl
  | ⟨1, _⟩ => show 0 + 1 * (j 0).val = (j 0).val; omega
  | ⟨2, _⟩ => show 0 + 1 * (j 1).val = (j 1).val; omega

/-- The plane the body loads at row 1 of the stack is plane 1. -/
theorem loaded_plane1 (W : Vec Ideal S3x128x128 .f32) : onlyPlane (View.ld W r0_3) = plane W 1 := by
  funext j
  unfold onlyPlane plane
  refine congrArg W (funext fun a => Fin.ext ?_)
  match a with
  | ⟨0, _⟩ => rfl
  | ⟨1, _⟩ => show 0 + 1 * (j 0).val = (j 0).val; omega
  | ⟨2, _⟩ => show 0 + 1 * (j 1).val = (j 1).val; omega

/-- The plane the body loads at row 2 of the stack is plane 2. -/
theorem loaded_plane2 (W : Vec Ideal S3x128x128 .f32) : onlyPlane (View.ld W r0_4) = plane W 2 := by
  funext j
  unfold onlyPlane plane
  refine congrArg W (funext fun a => Fin.ext ?_)
  match a with
  | ⟨0, _⟩ => rfl
  | ⟨1, _⟩ => show 0 + 1 * (j 0).val = (j 0).val; omega
  | ⟨2, _⟩ => show 0 + 1 * (j 1).val = (j 1).val; omega

/-- A band of the whole result is the sum of products of the bands: if each band `b` reads its matrix `X` at rows
    4000·r + ·, then the bands' sum of products at y is the matrices' at any i with i₀ = 4000·r + y₀ and i₁ = y₁. -/
theorem band_eq (X0 X1 X2 X3 : FVec Ideal S100000x128 .f32) (L : FVec Ideal S128x128 .f32) (W : FVec Ideal S3x128x128 .f32)
    (b0 b1 b2 b3 : FVec Ideal S4000x128 .f32) (r : Nat)
    (hb0 : ∀ (y : S4000x128.Idx) (i : S100000x128.Idx), (i 0).val = r * 4000 + (y 0).val → (i 1).val = (y 1).val → b0 y = X0 i)
    (hb1 : ∀ (y : S4000x128.Idx) (i : S100000x128.Idx), (i 0).val = r * 4000 + (y 0).val → (i 1).val = (y 1).val → b1 y = X1 i)
    (hb2 : ∀ (y : S4000x128.Idx) (i : S100000x128.Idx), (i 0).val = r * 4000 + (y 0).val → (i 1).val = (y 1).val → b2 y = X2 i)
    (hb3 : ∀ (y : S4000x128.Idx) (i : S100000x128.Idx), (i 0).val = r * 4000 + (y 0).val → (i 1).val = (y 1).val → b3 y = X3 i)
    (y : S4000x128.Idx) (i : S100000x128.Idx) (hi0 : (i 0).val = r * 4000 + (y 0).val) (hi1 : (i 1).val = (y 1).val) :
    sumOfProducts b0 b1 b2 b3 L (plane W 0) (plane W 1) (plane W 2) y = combined X0 X1 X2 X3 L W i := by
  obtain ⟨p, q, rfl⟩ : ∃ (p : Fin 4000) (q : Fin 128), y = ix2 p q := ⟨y 0, y 1, eq_ix2 y⟩
  obtain ⟨a, b, rfl⟩ : ∃ (a : Fin 100000) (b : Fin 128), i = ix2 a b := ⟨i 0, i 1, eq_ix2 i⟩
  have ha : a.val = r * 4000 + p.val := hi0
  obtain rfl : b = q := Fin.ext hi1
  unfold combined
  rw [sumOfProducts_ix2, sumOfProducts_ix2]
  exact entry_congr b0 b1 b2 b3 X0 X1 X2 X3 L _ _ _ p a b
    (fun k => hb0 (ix2 p k) (ix2 a k) ha rfl) (fun k => hb1 (ix2 p k) (ix2 a k) ha rfl)
    (fun k => hb2 (ix2 p k) (ix2 a k) ha rfl) (fun k => hb3 (ix2 p k) (ix2 a k) ha rfl)

end Cert.KernelIdeal.Bands

end
-- ==== Proof.Blocks.lean ====
/-
  From blocks to the whole result array. At grid point t the body stores, into the result's band of rows
  4000·t … 4000·t + 3999, the sum of the four products of the bands it loaded; by the band lemma that is the band of
  the whole-array sum of products of the arrays the kernel finds. The 25 bands cover every row (row a lies in band
  a / 4000), so after the run the result array is the specification's function of those six arrays, whatever they are
  called: the statement takes each array by a name and an equation, so that the arrays computed on the host never have to
  be opened here.
-/
import proofs.«124819_j56684978372939_1_alg».proof.Proof.Gen.KernelIdeal.Value
import proofs.«124819_j56684978372939_1_alg».proof.Proof.Payload
import proofs.«124819_j56684978372939_1_alg».proof.Proof.Bands

noncomputable section

namespace Cert.KernelIdeal.Blocks

open Cert.KernelIdeal Cert.KernelIdeal.Gen Idealize.ShloMosaic Idealize.ShloMosaic.TcCoe Idealize.SL.Sem
open Idealize.ShloMosaic.ValueIdx Cert.Combine
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl

/-- What the body leaves in the result's staging buffer, for any loaded blocks: the sum of the four products, the relation
    weights the three planes of the loaded stack. -/
theorem body_result (x0 x1 x2 x3 : Vec Ideal S4000x128 .f32) (x4 : Vec Ideal S128x128 .f32) (x5 : Vec Ideal S3x128x128 .f32) :
    out0_6 x0 x1 x2 x3 x4 x5 = sumOfProducts x0 x1 x2 x3 x4 (plane x5 0) (plane x5 1) (plane x5 2) := by
  unfold out0_6
  rw [View.canon_unit_zero origin2]
  simp only [View.ld_unit_zero (S := S4000x128) origin2, View.ld_unit_zero (S := S128x128) origin2]
  rw [Payload.stored_eq, Bands.loaded_plane0, Bands.loaded_plane1, Bands.loaded_plane2]

/-- A staged block `S` that agrees, entry by entry, with an array `G` on the band of point t is what the window's block
    at t reads off `G`. -/
theorem band_is_block (c : Dev nD) (t : Fin cfg0.N) (S : Vec Ideal S4000x128 .f32) (G : Buf (Elt Ideal) ((c : Thread nD τ).loc main_v57))
    (h : ∀ (y : S4000x128.Idx) (i : S100000x128.Idx), (i 0).val = win0_6.index t (0 : Fin 2) * 4000 + (y 0).val → (i 1).val = (y 1).val →
      S y = (G : S100000x128.Idx → Elt Ideal .f32) i) :
    (cfg0.win 6).cut (grid0.coords t) S = ((cfg0.win 6).blk t).view.read (Elt Ideal) G := by
  funext j
  have hj0 : (j 0).val < 4000 := (j 0).isLt
  have hj1 : (j 1).val < 128 := (j 1).isLt
  have hb : win0_6.index t (0 : Fin 2) ≤ 24 := (Bands.idx_facts t).2.2.2.2.2.2.2.2.2.2.2.2.2.1
  rw [Bands.read6 c t G j (ix2 ⟨win0_6.index t (0 : Fin 2) * 4000 + (j 0).val, by omega⟩ ⟨(j 1).val, hj1⟩) rfl rfl]
  exact h j _ rfl rfl

/-- What point t writes back is its band of the sum of products of the arrays the kernel finds. -/
theorem flushed_eq (c : Dev nD) (t : Fin cfg0.N) :
    (dats m 0 c).flushed 6 t = ((cfg0.win 6).blk t).view.read (Elt Ideal)
      (combined (M := 100000) (V m c main_arg0) (V m c main_v18) (V m c main_v37) (V m c main_v56) (V m c main_arg5) (V m c main_arg4)) := by
  rw [Cert.KernelIdeal.Value.flushed6, body_result, Bands.iblk4_eq, Bands.iblk5_eq]
  refine band_is_block c t _ _ (fun y i h0 h1 => ?_)
  exact Bands.band_eq (V m c main_arg0) (V m c main_v18) (V m c main_v37) (V m c main_v56) (V m c main_arg5) (V m c main_arg4)
    (iblk m c 0 t) (iblk m c 1 t) (iblk m c 2 t) (iblk m c 3 t) (win0_6.index t (0 : Fin 2))
    (Bands.iblk0_apply m c t) (Bands.iblk1_apply m c t) (Bands.iblk2_apply m c t) (Bands.iblk3_apply m c t) y i h0 h1

/-- An index is in point t's block iff each coordinate is in the block's range on its axis. -/
theorem mem_block (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v57).slice (win0_6.rect t)).set ↔ _
  rw [View.set_slice_whole, Rect.mem_set_unit]
  exact Iff.rfl

/-- Every one of the 25 row bands is some point's. -/
theorem band_onto : ∀ q : Fin 25, ∃ t : Fin cfg0.N, win0_6.index t = ![q.val, 0] :=
  (by decide +kernel : ∀ q : Fin 25, ∃ t : Fin grid0.N, win0_6.index t = ![q.val, 0])

/-- Every index of the result lies in the block of the point whose band holds its row. -/
theorem covered (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := band_onto ⟨(i 0).val / 4000, by omega⟩
  have q0 : win0_6.index t (0 : Fin 2) = (i 0).val / 4000 := congrFun ht 0
  have q1 : win0_6.index t (1 : Fin 2) = 0 := congrFun ht 1
  refine ⟨t, flush0_6 t, ?_⟩
  rw [mem_block]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- After the run the result array is the sum of products of the six arrays the kernel finds, each given by a name and an
    equation. -/
theorem final (c : Dev nD) (X0 X1 X2 X3 : FVec Ideal S100000x128 .f32) (L : FVec Ideal S128x128 .f32) (W : FVec Ideal S3x128x128 .f32)
    (h0 : (V m c main_arg0 : S100000x128.Idx → Elt Ideal .f32) = X0) (h1 : (V m c main_v18 : S100000x128.Idx → Elt Ideal .f32) = X1)
    (h2 : (V m c main_v37 : S100000x128.Idx → Elt Ideal .f32) = X2) (h3 : (V m c main_v56 : S100000x128.Idx → Elt Ideal .f32) = X3)
    (h4 : (V m c main_arg5 : S128x128.Idx → Elt Ideal .f32) = L) (h5 : (V m c main_arg4 : S3x128x128.Idx → Elt Ideal .f32) = W) :
    (dats m 0 c).arrAt 6 cfg0.N = combined X0 X1 X2 X3 L W := by
  subst h0 h1 h2 h3 h4 h5
  exact (dats m 0 c).arrAt_eq_of_cover 6 _ (fun t _ => flushed_eq m c t) covered

end Cert.KernelIdeal.Blocks

end
-- ==== Proof.HostMsgs.lean ====
/-
  The message matrices. Before the kernel runs, the program computes, for each relation r = 0, 1, 2, a message
  matrix on the host: row src of the node features gathered per edge (a negative index first wrapped by adding the
  row count), scaled by the edge's value, and added into row dst of a zero matrix. The reference computes the same
  three matrices by the same operations on the same literals. Here: each array the kernel's windows 1, 2, 3 are staged
  from is, as the kernel finds it, that stage of the reference read at the kernel's own arguments.
-/
import proofs.«124819_j56684978372939_1_alg».proof.Proof.Gen.KernelIdeal.Frame
import proofs.«124819_j56684978372939_1_alg».proof.Proof.Gen.ReferenceIdeal.Read
import Idealize.ShloMosaic.Lib.StableHlo.Run

noncomputable section

namespace Cert.KernelIdeal.HostMsgs

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 4000000 in
/-- Relation 0's message matrix, as the kernel finds it. -/
theorem msg0_eq (c : Dev nD) :
    (V m c main_v18 : S100000x128.Idx → Elt Ideal .f32)
      = Cert.ReferenceIdeal.Read.val_main_v19 (F := Ideal) (m ((c : Thread nD τ).loc main_arg0)) (m ((c : Thread nD τ).loc main_arg1))
          (m ((c : Thread nD τ).loc main_arg2)) (m ((c : Thread nD τ).loc main_arg3)) := by
  dsimp only [Gen.V, Gen.hostOps0]
  after_results
  rfl

set_option maxRecDepth 8192 in
set_option maxHeartbeats 4000000 in
/-- Relation 1's message matrix, as the kernel finds it. -/
theorem msg1_eq (c : Dev nD) :
    (V m c main_v37 : S100000x128.Idx → Elt Ideal .f32)
      = Cert.ReferenceIdeal.Read.val_main_v42 (F := Ideal) (m ((c : Thread nD τ).loc main_arg0)) (m ((c : Thread nD τ).loc main_arg1))
          (m ((c : Thread nD τ).loc main_arg2)) (m ((c : Thread nD τ).loc main_arg3)) := by
  dsimp only [Gen.V, Gen.hostOps0]
  after_results
  rfl

set_option maxRecDepth 8192 in
set_option maxHeartbeats 4000000 in
/-- Relation 2's message matrix, as the kernel finds it. -/
theorem msg2_eq (c : Dev nD) :
    (V m c main_v56 : S100000x128.Idx → Elt Ideal .f32)
      = Cert.ReferenceIdeal.Read.val_main_v65 (F := Ideal) (m ((c : Thread nD τ).loc main_arg0)) (m ((c : Thread nD τ).loc main_arg1))
          (m ((c : Thread nD τ).loc main_arg2)) (m ((c : Thread nD τ).loc main_arg3)) := by
  dsimp only [Gen.V, Gen.hostOps0]
  after_results
  rfl

end Cert.KernelIdeal.HostMsgs

end
-- ==== Proof.RefIsSpec.lean ====
/-
  The reference computes the specification. Its last stage adds, from the left, the product of the node features by the
  self-loop weight and the products of its three message matrices by the three slices of the relation weights, each
  slice [r : r+1] of the stack recast to a 128 × 128 matrix — which is plane r. Each product, read at an entry, is the
  sum over the contracted coordinate; so entry by entry the stage is the sum of products.
-/
import proofs.«124819_j56684978372939_1_alg».proof.Proof.Gen.ReferenceIdeal.Read
import proofs.«124819_j56684978372939_1_alg».proof.Proof.Spec

noncomputable section

open scoped BigOperators

namespace Cert.ReferenceIdeal.IsSpec

open Cert.ReferenceIdeal Cert.ReferenceIdeal.Read Idealize.ShloMosaic Idealize.ShloMosaic.ValueIdx Cert.Combine

/-- Slice [0:1] of the weight stack, recast, is plane 0. -/
theorem slice0 (x4 : (⟨S3x128x128, .f32⟩ : BufTy).Contents (Elt Ideal)) (k b : Fin 128) :
    val_main_v21 (F := Ideal) x4 (ix2 k b) = plane x4 0 (ix2 k b) := by
  rw [val_main_v21_apply, val_main_v20_apply]
  unfold plane
  refine congrArg (x4 : S3x128x128.Idx → Elt Ideal .f32) (funext fun d => Fin.ext ?_)
  have hk := k.isLt
  have hb := b.isLt
  match d with
  | ⟨0, _⟩ => rfl
  | ⟨1, _⟩ => show (k.val * 128 + b.val) / 128 % 128 = k.val; omega
  | ⟨2, _⟩ => show (k.val * 128 + b.val) % 128 = b.val; omega

/-- Slice [1:2] of the weight stack, recast, is plane 1. -/
theorem slice1 (x4 : (⟨S3x128x128, .f32⟩ : BufTy).Contents (Elt Ideal)) (k b : Fin 128) :
    val_main_v44 (F := Ideal) x4 (ix2 k b) = plane x4 1 (ix2 k b) := by
  rw [val_main_v44_apply, val_main_v43_apply]
  unfold plane
  refine congrArg (x4 : S3x128x128.Idx → Elt Ideal .f32) (funext fun d => Fin.ext ?_)
  have hk := k.isLt
  have hb := b.isLt
  match d with
  | ⟨0, _⟩ => rfl
  | ⟨1, _⟩ => show (k.val * 128 + b.val) / 128 % 128 = k.val; omega
  | ⟨2, _⟩ => show (k.val * 128 + b.val) % 128 = b.val; omega

/-- Slice [2:3] of the weight stack, recast, is plane 2. -/
theorem slice2 (x4 : (⟨S3x128x128, .f32⟩ : BufTy).Contents (Elt Ideal)) (k b : Fin 128) :
    val_main_v67 (F := Ideal) x4 (ix2 k b) = plane x4 2 (ix2 k b) := by
  rw [val_main_v67_apply, val_main_v66_apply]
  unfold plane
  refine congrArg (x4 : S3x128x128.Idx → Elt Ideal .f32) (funext fun d => Fin.ext ?_)
  have hk := k.isLt
  have hb := b.isLt
  match d with
  | ⟨0, _⟩ => rfl
  | ⟨1, _⟩ => show (k.val * 128 + b.val) / 128 % 128 = k.val; omega
  | ⟨2, _⟩ => show (k.val * 128 + b.val) % 128 = b.val; omega

/-- The reference's result is the sum of products of the node features, its three message stages, the self-loop weight
    and the relation weights. -/
theorem ref_eq (x0 : (⟨S100000x128, .f32⟩ : BufTy).Contents (Elt Ideal)) (x1 x2 : (⟨S3x1600000, .i32⟩ : BufTy).Contents (Elt Ideal))
    (x3 : (⟨S3x1600000, .f32⟩ : BufTy).Contents (Elt Ideal)) (x4 : (⟨S3x128x128, .f32⟩ : BufTy).Contents (Elt Ideal)) (x5 : (⟨S128x128, .f32⟩ : BufTy).Contents (Elt Ideal)) :
    val_main_v69 (F := Ideal) x0 x1 x2 x3 x4 x5
      = combined (M := 100000) x0 (val_main_v19 (F := Ideal) x0 x1 x2 x3) (val_main_v42 (F := Ideal) x0 x1 x2 x3)
          (val_main_v65 (F := Ideal) x0 x1 x2 x3) x5 x4 := by
  funext i
  obtain ⟨a, b, rfl⟩ : ∃ (a : Fin 100000) (b : Fin 128), i = ix2 a b := ⟨i 0, i 1, eq_ix2 i⟩
  unfold combined
  rw [sumOfProducts_ix2]
  unfold entry rowDot
  rw [val_main_v69_apply, val_main_v46_apply, val_main_v23_apply, val_main_v0_apply, val_main_v22_apply, val_main_v45_apply,
    val_main_v68_apply]
  have l0 : ∀ k : Fin 128, lidx_main_v0 (ix2 a b) k = ix2 a k := fun k => funext fun d => Fin.ext (by match d with | ⟨0, _⟩ => rfl | ⟨1, _⟩ => rfl)
  have r0 : ∀ k : Fin 128, ridx_main_v0 (ix2 a b) k = ix2 k b := fun k => funext fun d => Fin.ext (by match d with | ⟨0, _⟩ => rfl | ⟨1, _⟩ => rfl)
  have l1 : ∀ k : Fin 128, lidx_main_v22 (ix2 a b) k = ix2 a k := fun k => funext fun d => Fin.ext (by match d with | ⟨0, _⟩ => rfl | ⟨1, _⟩ => rfl)
  have r1 : ∀ k : Fin 128, ridx_main_v22 (ix2 a b) k = ix2 k b := fun k => funext fun d => Fin.ext (by match d with | ⟨0, _⟩ => rfl | ⟨1, _⟩ => rfl)
  have l2 : ∀ k : Fin 128, lidx_main_v45 (ix2 a b) k = ix2 a k := fun k => funext fun d => Fin.ext (by match d with | ⟨0, _⟩ => rfl | ⟨1, _⟩ => rfl)
  have r2 : ∀ k : Fin 128, ridx_main_v45 (ix2 a b) k = ix2 k b := fun k => funext fun d => Fin.ext (by match d with | ⟨0, _⟩ => rfl | ⟨1, _⟩ => rfl)
  have l3 : ∀ k : Fin 128, lidx_main_v68 (ix2 a b) k = ix2 a k := fun k => funext fun d => Fin.ext (by match d with | ⟨0, _⟩ => rfl | ⟨1, _⟩ => rfl)
  have r3 : ∀ k : Fin 128, ridx_main_v68 (ix2 a b) k = ix2 k b := fun k => funext fun d => Fin.ext (by match d with | ⟨0, _⟩ => rfl | ⟨1, _⟩ => rfl)
  simp only [l0, r0, l1, r1, l2, r2, l3, r3, slice0, slice1, slice2, Ideal.addf_def]

end Cert.ReferenceIdeal.IsSpec

end
-- ==== Proof.lean ====
/-
  The kernel and its reference compute one function of the arguments, over the extended reals.

  Both programs first build, for each relation r = 0, 1, 2, a message matrix on the host: rows of the node features
  gathered per edge by the source index, scaled by the edge's value, summed into the rows named by the destination index.
  The reference then adds, from the left, the product of the node features by the self-loop weight and the products of
  the three message matrices by the three planes of the relation weights. The kernel does the four products and the three
  additions in one pass over 25 bands of 4000 rows, narrowing each factor to a shorter float format before multiplying —
  which changes no value over the extended reals. Row a of the result reads row a of the four left factors only, so the
  25 bands assemble to the whole result; and the additions come in the same order in both programs, so no law of the
  extended reals beyond reading a matrix product as a sum is needed, and the inputs' finiteness is never used.

  The frames of the two kernel programs and the kernel's run with its result array named are the generated modules'; the
  reference's frame is its generated run with the result dropped. The kernel is its own idealization: the pass rewrote
  nothing.
-/
import proofs.«124819_j56684978372939_1_alg».proof.Defs
import proofs.«124819_j56684978372939_1_alg».proof.Proof.Gen.Kernel
import proofs.«124819_j56684978372939_1_alg».proof.Proof.Gen.Kernel.Skeleton
import proofs.«124819_j56684978372939_1_alg».proof.Proof.Gen.Kernel.Launch
import proofs.«124819_j56684978372939_1_alg».proof.Proof.Gen.Kernel.Points
import proofs.«124819_j56684978372939_1_alg».proof.Proof.Gen.Kernel.Frame
import proofs.«124819_j56684978372939_1_alg».proof.Proof.Gen.KernelIdeal
import proofs.«124819_j56684978372939_1_alg».proof.Proof.Gen.KernelIdeal.Skeleton
import proofs.«124819_j56684978372939_1_alg».proof.Proof.Gen.KernelIdeal.Launch
import proofs.«124819_j56684978372939_1_alg».proof.Proof.Gen.KernelIdeal.Points
import proofs.«124819_j56684978372939_1_alg».proof.Proof.Gen.KernelIdeal.Frame
import proofs.«124819_j56684978372939_1_alg».proof.Proof.Gen.ReferenceIdeal
import proofs.«124819_j56684978372939_1_alg».proof.Proof.Gen.Pre_finite_inputs
import proofs.«124819_j56684978372939_1_alg».proof.Proof.Gen.KernelIdeal.Value
import proofs.«124819_j56684978372939_1_alg».proof.Proof.Gen.ReferenceIdeal.Run
import proofs.«124819_j56684978372939_1_alg».proof.Proof.Gen.ReferenceIdeal.Read
import proofs.«124819_j56684978372939_1_alg».proof.Proof.Spec
import proofs.«124819_j56684978372939_1_alg».proof.Proof.Blocks
import proofs.«124819_j56684978372939_1_alg».proof.Proof.HostMsgs
import proofs.«124819_j56684978372939_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run, the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the result at the sum of products of the node
    features, the three message matrices of the arguments, the self-loop weight and the relation weights. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Combine.combined (M := 100000) (m ((c : Thread Cert.KernelIdeal.nD Cert.KernelIdeal.τ).loc Cert.KernelIdeal.main_arg0))
      (Cert.ReferenceIdeal.Read.val_main_v19 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)))
      (Cert.ReferenceIdeal.Read.val_main_v42 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)))
      (Cert.ReferenceIdeal.Read.val_main_v65 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)))
      (m ((c : Thread Cert.KernelIdeal.nD Cert.KernelIdeal.τ).loc Cert.KernelIdeal.main_arg5)) (m ((c : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.KernelIdeal.Value.run_blocks m ρ)
    exact Cert.KernelIdeal.Blocks.final m c _ _ _ _ _ _ (Cert.KernelIdeal.Gen.V_main_arg0 m c) (Cert.KernelIdeal.HostMsgs.msg0_eq m c)
      (Cert.KernelIdeal.HostMsgs.msg1_eq m c) (Cert.KernelIdeal.HostMsgs.msg2_eq m c) (Cert.KernelIdeal.Gen.V_main_arg5 m c)
      (Cert.KernelIdeal.Gen.V_main_arg4 m c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v69_eq, Cert.ReferenceIdeal.IsSpec.ref_eq, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
